-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S640000 : Shape := ⟨1, ![640000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S640000 : S_.BroadcastsInDim S640000 (![] : Fin 0 → Fin S640000.rank)
  reducesTo_S640000_S_d0 : S640000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128x128 .f32) (main_arg5 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S50000x128 .f32) (main_arg1 : FVec F S640000 .f32) (main_arg2 : FVec F S128x128 .f32) (main_arg3 : FVec F S128 .f32) (main_arg4 : FVec F S128x128 .f32) (main_arg5 : FVec F S128 .f32) (main_arg6 : IVec S640000 32) (main_arg7 : IVec S640000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S640000 .f32 := Host.absf main_arg1
  let main_cst_0 : FVec F S_ .f32 := constant S_ .f32 0x7F800000#32
  let main_v5 : FVec F S640000 .f32 := broadcastInDim S640000 ![] bcast_S_S640000 main_cst_0
  let main_v6 : IVec S640000 1 := cmpf .olt main_v4 main_v5
  let main_c_1 : IVec S_ 1 := constantI S_ 1 1#1
  let main_v7 : IVec S_ 1 := (fun x v => Host.reduce IntOp.andi x v reducesTo_S640000_S_d0 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_v13 main_v16
-- ==== Kernel.lean ====
abbrev S50000x128 : Shape := ⟨2, ![50000, 128]⟩
abbrev S640000 : Shape := ⟨1, ![640000]⟩
abbrev S128x128 : Shape := ⟨2, ![128, 128]⟩
abbrev S128 : Shape := ⟨1, ![128]⟩
abbrev S640000x1 : Shape := ⟨2, ![640000, 1]⟩
abbrev S_ : Shape := ⟨0, ![]⟩
abbrev S640000x128 : Shape := ⟨2, ![640000, 128]⟩
abbrev S1x128 : Shape := ⟨2, ![1, 128]⟩
abbrev S2000x128 : Shape := ⟨2, ![2000, 128]⟩

abbrev nBuf : Space → Nat
  | .hbm => 32
  | .vmem => 10
  | .smem => 0
  | _ => 0

abbrev bufTy : (tb : Table) → Fin (tcTables nBuf tb) → BufTy
  | .hbm, ⟨0, _⟩ => ⟨S50000x128, .f32⟩
  | .hbm, ⟨1, _⟩ => ⟨S640000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S640000, .i32⟩
  | .hbm, ⟨7, _⟩ => ⟨S640000, .i32⟩
  | .hbm, ⟨8, _⟩ => ⟨S640000x1, .f32⟩
  | .hbm, ⟨9, _⟩ => ⟨S_, .i32⟩
  | .hbm, ⟨10, _⟩ => ⟨S640000, .i32⟩
  | .hbm, ⟨11, _⟩ => ⟨S640000, .i1⟩
  | .hbm, ⟨12, _⟩ => ⟨S_, .i32⟩
  | .hbm, ⟨13, _⟩ => ⟨S640000, .i32⟩
  | .hbm, ⟨14, _⟩ => ⟨S640000, .i32⟩
  | .hbm, ⟨15, _⟩ => ⟨S640000, .i32⟩
  | .hbm, ⟨16, _⟩ => ⟨S640000x1, .i32⟩
  | .hbm, ⟨17, _⟩ => ⟨S640000x128, .f32⟩
  | .hbm, ⟨18, _⟩ => ⟨S640000x128, .f32⟩
  | .hbm, ⟨19, _⟩ => ⟨S640000x128, .f32⟩
  | .hbm, ⟨20, _⟩ => ⟨S_, .f32⟩
  | .hbm, ⟨21, _⟩ => ⟨S50000x128, .f32⟩
  | .hbm, ⟨22, _⟩ => ⟨S640000x1, .i32⟩
  | .hbm, ⟨23, _⟩ => ⟨S50000x128, .f32⟩
  | .hbm, ⟨24, _⟩ => ⟨S50000x128, .bf16⟩
  | .hbm, ⟨25, _⟩ => ⟨S128x128, .f32⟩
  | .hbm, ⟨26, _⟩ => ⟨S128x128, .bf16⟩
  | .hbm, ⟨27, _⟩ => ⟨S128x128, .f32⟩
  | .hbm, ⟨28, _⟩ => ⟨S128x128, .bf16⟩
  | .hbm, ⟨29, _⟩ => ⟨S1x128, .f32⟩
  | .hbm, ⟨30, _⟩ => ⟨S1x128, .f32⟩
  | .hbm, ⟨31, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S2000x128, .bf16⟩
  | .local _ .vmem, ⟨3, _⟩ => ⟨S2000x128, .bf16⟩
  | .local _ .vmem, ⟨4, _⟩ => ⟨S128x128, .bf16⟩
  | .local _ .vmem, ⟨5, _⟩ => ⟨S1x128, .f32⟩
  | .local _ .vmem, ⟨6, _⟩ => ⟨S128x128, .bf16⟩
  | .local _ .vmem, ⟨7, _⟩ => ⟨S1x128, .f32⟩
  | .local _ .vmem, ⟨8, _⟩ => ⟨S2000x128, .f32⟩
  | .local _ .vmem, ⟨9, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bcast_S640000_S640000x1_0 : S640000.BroadcastsInDim S640000x1 (![0] : Fin 1 → Fin S640000x1.rank)
  bcast_S_S640000 : S_.BroadcastsInDim S640000 (![] : Fin 0 → Fin S640000.rank)
  bcast_S640000x1_S640000x128_0_1 : S640000x1.BroadcastsInDim S640000x128 (![0, 1] : Fin 2 → Fin S640000x128.rank)
  bcast_S_S50000x128 : S_.BroadcastsInDim S50000x128 (![] : Fin 0 → Fin S50000x128.rank)
  bitsLt_bf16_f32 : FTy.bits .bf16 < FTy.bits .f32
  transposes_S128x128_S128x128_1_0 : S128x128.Transposes [1, 0] S128x128
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  gather_S50000x128_S640000x1_S640000x128_1_0_n_n_0_1_1128_wf : GatherDims.WF S50000x128 S640000x1 S640000x128 [1] [0] [] [0] [] 1 ![1, 128]
  scatter_S50000x128_S640000x1_S640000x128_1_0_0_1_wf : ScatterDims.WF S50000x128 S640000x1 S640000x128 [1] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .bf16 = 32 ∨ (Rect.block (s := S50000x128) S2000x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .bf16 = 32 ∨ (Rect.block (s := S128x128) S128x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x128.size a ≤ S50000x128.size a
  hwx0_6 : ∀ i : grid0.Coords, EltTy.bits .f32 = 32 ∨ (Rect.block (s := S50000x128) S2000x128.size (cc0_transform_6 i) (hinb0_6 i)).WholeWords (EltTy.packing .f32)

variable [Facts₀]

def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v18) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v17) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v19) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v20) S2000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S50000x128 : Shape := ⟨2, ![50000, 128]⟩
abbrev S640000 : Shape := ⟨1, ![640000]⟩
abbrev S128x128 : Shape := ⟨2, ![128, 128]⟩
abbrev S128 : Shape := ⟨1, ![128]⟩
abbrev S640000x1 : Shape := ⟨2, ![640000, 1]⟩
abbrev S_ : Shape := ⟨0, ![]⟩
abbrev S640000x128 : Shape := ⟨2, ![640000, 128]⟩
abbrev S1x128 : Shape := ⟨2, ![1, 128]⟩

abbrev nBuf : Space → Nat
  | .hbm => 53
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S640000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S640000, .i32⟩
  | .hbm, ⟨7, _⟩ => ⟨S640000, .i32⟩
  | .hbm, ⟨8, _⟩ => ⟨S640000x1, .f32⟩
  | .hbm, ⟨9, _⟩ => ⟨S_, .i32⟩
  | .hbm, ⟨10, _⟩ => ⟨S640000, .i32⟩
  | .hbm, ⟨11, _⟩ => ⟨S640000, .i1⟩
  | .hbm, ⟨12, _⟩ => ⟨S_, .i32⟩
  | .hbm, ⟨13, _⟩ => ⟨S640000, .i32⟩
  | .hbm, ⟨14, _⟩ => ⟨S640000, .i32⟩
  | .hbm, ⟨15, _⟩ => ⟨S640000, .i32⟩
  | .hbm, ⟨16, _⟩ => ⟨S640000x1, .i32⟩
  | .hbm, ⟨17, _⟩ => ⟨S640000x128, .f32⟩
  | .hbm, ⟨18, _⟩ => ⟨S640000x128, .f32⟩
  | .hbm, ⟨19, _⟩ => ⟨S640000x128, .f32⟩
  | .hbm, ⟨20, _⟩ => ⟨S_, .f32⟩
  | .hbm, ⟨21, _⟩ => ⟨S50000x128, .f32⟩
  | .hbm, ⟨22, _⟩ => ⟨S640000x1, .i32⟩
  | .hbm, ⟨23, _⟩ => ⟨S50000x128, .f32⟩
  | .hbm, ⟨24, _⟩ => ⟨S50000x128, .bf16⟩
  | .hbm, ⟨25, _⟩ => ⟨S50000x128, .f32⟩
  | .hbm, ⟨26, _⟩ => ⟨S50000x128, .f32⟩
  | .hbm, ⟨27, _⟩ => ⟨S128x128, .f32⟩
  | .hbm, ⟨28, _⟩ => ⟨S50000x128, .f32⟩
  | .hbm, ⟨29, _⟩ => ⟨S1x128, .f32⟩
  | .hbm, ⟨30, _⟩ => ⟨S50000x128, .f32⟩
  | .hbm, ⟨31, _⟩ => ⟨S50000x128, .f32⟩
  | .hbm, ⟨32, _⟩ => ⟨S_, .f32⟩
  | .hbm, ⟨33, _⟩ => ⟨S50000x128, .f32⟩
  | .hbm, ⟨34, _⟩ => ⟨S50000x128, .i1⟩
  | .hbm, ⟨35, _⟩ => ⟨S_, .f32⟩
  | .hbm, ⟨36, _⟩ => ⟨S50000x128, .f32⟩
  | .hbm, ⟨37, _⟩ => ⟨S50000x128, .f32⟩
  | .hbm, ⟨38, _⟩ => ⟨S50000x128, .f32⟩
  | .hbm, ⟨39, _⟩ => ⟨S50000x128, .f32⟩
  | .hbm, ⟨40, _⟩ => ⟨S128x128, .f32⟩
  | .hbm, ⟨41, _⟩ => ⟨S50000x128, .f32⟩
  | .hbm, ⟨42, _⟩ => ⟨S1x128, .f32⟩
  | .hbm, ⟨43, _⟩ => ⟨S50000x128, .f32⟩
  | .hbm, ⟨44, _⟩ => ⟨S50000x128, .f32⟩
  | .hbm, ⟨45, _⟩ => ⟨S_, .f32⟩
  | .hbm, ⟨46, _⟩ => ⟨S50000x128, .f32⟩
  | .hbm, ⟨47, _⟩ => ⟨S50000x128, .i1⟩
  | .hbm, ⟨48, _⟩ => ⟨S_, .f32⟩
  | .hbm, ⟨49, _⟩ => ⟨S50000x128, .f32⟩
  | .hbm, ⟨50, _⟩ => ⟨S50000x128, .f32⟩
  | .hbm, ⟨51, _⟩ => ⟨S50000x128, .f32⟩
  | .hbm, ⟨52, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_call0_cst : Ref sig .tc := ⟨.hbm, 32, rfl⟩
abbrev main_call0_v0 : Ref sig .tc := ⟨.hbm, 33, rfl⟩
abbrev main_call0_v1 : Ref sig .tc := ⟨.hbm, 34, rfl⟩
abbrev main_call0_cst_0 : Ref sig .tc := ⟨.hbm, 35, rfl⟩
abbrev main_call0_v2 : Ref sig .tc := ⟨.hbm, 36, rfl⟩
abbrev main_call0_v3 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_call1_cst : Ref sig .tc := ⟨.hbm, 45, rfl⟩
abbrev main_call1_v0 : Ref sig .tc := ⟨.hbm, 46, rfl⟩
abbrev main_call1_v1 : Ref sig .tc := ⟨.hbm, 47, rfl⟩
abbrev main_call1_cst_0 : Ref sig .tc := ⟨.hbm, 48, rfl⟩
abbrev main_call1_v2 : Ref sig .tc := ⟨.hbm, 49, rfl⟩
abbrev main_call1_v3 : Ref sig .tc := ⟨.hbm, 50, rfl⟩
abbrev main_v28 : Ref sig .tc := ⟨.hbm, 51, rfl⟩
abbrev main_v29 : Ref sig .tc := ⟨.hbm, 52, rfl⟩

abbrev nD : Nat := 1
abbrev τ : Topo := Topo.v7x

variable {F : FTy → Type} [FloatOps F]

class Facts₀ : Prop where
  bcast_S640000_S640000x1_0 : S640000.BroadcastsInDim S640000x1 (![0] : Fin 1 → Fin S640000x1.rank)
  bcast_S_S640000 : S_.BroadcastsInDim S640000 (![] : Fin 0 → Fin S640000.rank)
  bcast_S640000x1_S640000x128_0_1 : S640000x1.BroadcastsInDim S640000x128 (![0, 1] : Fin 2 → Fin S640000x128.rank)
  bcast_S_S50000x128 : S_.BroadcastsInDim S50000x128 (![] : Fin 0 → Fin S50000x128.rank)
  bitsLt_bf16_f32 : FTy.bits .bf16 < FTy.bits .f32
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S50000x128_S640000x1_S640000x128_1_0_n_n_0_1_1128_wf : GatherDims.WF S50000x128 S640000x1 S640000x128 [1] [0] [] [0] [] 1 ![1, 128]
  scatter_S50000x128_S640000x1_S640000x128_1_0_0_1_wf : ScatterDims.WF S50000x128 S640000x1 S640000x128 [1] [0] [0] 1
  dot_S50000x128_S128x128_S50000x128_1_0_0_1_n_n_wf : DotDims.WF S50000x128 S128x128 S50000x128 [1] [0] [0] [1] [] []

variable [Facts₀]

def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.Spec.lean ====
import Idealize.ShloMosaic.PureOps.Ideal.Laws
import Idealize.ShloMosaic.Lib.ValueIdx

/-!
The bi-interaction block as one function of its arrays, entry by entry, on the extended reals.

For node embeddings ego and the aggregated neighbour messages S (both 50000 × 128), weights W1t, W2t already
transposed (128 × 128, entry (k, j) the weight from input feature k to output feature j) and biases b1, b2 held
as single rows (1 × 128), entry (r, j) of the result is

  lrelu (∑ k, (ego r k + S r k) * W1t k j + b1 j) + lrelu (∑ k, (ego r k * S r k) * W2t k j + b2 j),

with lrelu x = x where x ≥ 0 and slope * x elsewhere, the slope the single-precision word nearest one hundredth.
-/

noncomputable section

open scoped BigOperators

namespace Cert.BiInteraction

open Idealize.ShloMosaic Idealize.ShloMosaic.ValueIdx

/-- The node-by-feature shape. -/
abbrev SN : Shape := ⟨2, ![50000, 128]⟩
/-- The weight shape. -/
abbrev SW : Shape := ⟨2, ![128, 128]⟩
/-- A bias held as one row. -/
abbrev SB : Shape := ⟨2, ![1, 128]⟩

/-- Leaky ReLU on the extended reals: the argument where it is at least zero, the slope times it elsewhere. -/
def lrelu (x : EReal) : EReal :=
  Scalar.select (FloatOps.cmpf (F := Ideal) (φ := .f32) .oge x (Ideal.ofBits .f32 0x00000000#32)) x
    (Ideal.ofBits .f32 0x3C23D70A#32 * x)

/-- One linear branch at entry (r, j): row r of the input against column j of the transposed weight, plus the bias. -/
def lin (A : SN.Idx → EReal) (Wt : SW.Idx → EReal) (b : SB.Idx → EReal) (r : Fin 50000) (j : Fin 128) : EReal :=
  (∑ k : Fin 128, A (ix2 r k) * Wt (ix2 k j)) + b (ix2 (0 : Fin 1) j)

/-- The block's result at entry (r, j). -/
def biAt (ego S : SN.Idx → EReal) (W1t W2t : SW.Idx → EReal) (b1 b2 : SB.Idx → EReal) (r : Fin 50000) (j : Fin 128) : EReal :=
  lrelu (lin (fun z => ego z + S z) W1t b1 r j) + lrelu (lin (fun z => ego z * S z) W2t b2 r j)

/-- The block's result as one array. -/
def bi (ego S : SN.Idx → EReal) (W1t W2t : SW.Idx → EReal) (b1 b2 : SB.Idx → EReal) : SN.Idx → EReal :=
  fun i => biAt ego S W1t W2t b1 b2 (i 0) (i 1)

theorem bi_ix2 (ego S : SN.Idx → EReal) (W1t W2t : SW.Idx → EReal) (b1 b2 : SB.Idx → EReal) (r : Fin 50000) (j : Fin 128) :
    bi ego S W1t W2t b1 b2 (ix2 r j) = biAt ego S W1t W2t b1 b2 r j := rfl

end Cert.BiInteraction

end
-- ==== Proof.DotSum.lean ====
import Idealize.ShloMosaic.PureOps.Ideal.Laws
import Idealize.ShloMosaic.Lib.ValueIdx

/-!
A matrix product with one contracted axis, read at an entry: for M×K by K×N dimension numbers
(left axis 1 against right axis 0), the contraction's sum over its own index set is the textbook sum
over k of f (p, k) * g (k, q). Both the kernel's matrix-unit product and the host's dot_general
are this sum at the extended reals.
-/

noncomputable section

open scoped BigOperators

namespace Cert.BiInteraction

open Idealize.ShloMosaic Idealize.ShloMosaic.ValueIdx

/-- The plain M×K by K×N dimension numbers, over any proof of their side conditions. -/
abbrev mkDot {M K N : Nat} (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ :=
  { lhsContracting := [1], rhsContracting := [0], lhsNonContracting := [0], rhsNonContracting := [1],
    lhsBatch := [], rhsBatch := [], wf := wf }

/-- The contraction at entry (p, q) is the sum over the shared axis of row p of the left operand against
    column q of the right one. -/
theorem dot_sum {M K N : Nat} (wf : DotDims.WF ⟨2, ![M, K]⟩ ⟨2, ![K, N]⟩ ⟨2, ![M, N]⟩ [1] [0] [0] [1] [] [])
    (f : (⟨2, ![M, K]⟩ : Shape).Idx → EReal) (g : (⟨2, ![K, N]⟩ : Shape).Idx → EReal) (p : Fin M) (q : Fin N) :
    ∑ k : (mkDot wf).contr.Idx, f ((mkDot wf).lhsIdx (ix2 p q) k) * g ((mkDot wf).rhsIdx (ix2 p q) k)
      = ∑ k : Fin K, f (ix2 p k) * g (ix2 k q) := by
  have hr : (mkDot wf).contr.rank = 1 := rfl
  have hs : (mkDot wf).contr.size ⟨0, by omega⟩ = K := rfl
  rw [← Equiv.sum_comp (contrEquiv1 (mkDot wf) K hr hs).symm]
  refine Finset.sum_congr rfl fun k _ => ?_
  have hl : (mkDot wf).lhsIdx (ix2 p q) ((contrEquiv1 (mkDot wf) K hr hs).symm k) = ix2 p k := by
    funext a
    apply Fin.ext
    match a with
    | ⟨0, _⟩ => rfl
    | ⟨1, _⟩ =>
      exact ((mkDot wf).lhsIdx_val_of_single (cl := 1) rfl (ix2 p q) _).trans
        (contrEquiv1_symm_val (mkDot wf) K hr hs k)
  have hg : (mkDot wf).rhsIdx (ix2 p q) ((contrEquiv1 (mkDot wf) K hr hs).symm k) = ix2 k q := by
    funext a
    apply Fin.ext
    match a with
    | ⟨0, _⟩ =>
      exact ((mkDot wf).rhsIdx_val_of_single (cr := 0) rfl (ix2 p q) _).trans
        (contrEquiv1_symm_val (mkDot wf) K hr hs k)
    | ⟨1, _⟩ => rfl
  rw [hl, hg]

end Cert.BiInteraction

end
-- ==== Proof.KernelPay.lean ====
import proofs.«164715_j63015760167158_2_alg».proof.Proof.Gen.KernelIdeal.Skeleton
import proofs.«164715_j63015760167158_2_alg».proof.Proof.Spec
import proofs.«164715_j63015760167158_2_alg».proof.Proof.DotSum
import Idealize.ShloMosaic.Lib.ValueLayout
import Idealize.ShloMosaic.Lib.Pipeline.Value

/-!
What the kernel body stores, read at one entry of its block, on the extended reals.

From a block x of node embeddings and the matching block s of aggregated messages (2000 × 128 each), the two
transposed weights and the two bias rows, the body stores at entry (p, q)

  lrelu (∑ k, (x p k + s p k) * W1t k q + b1 q) + lrelu (∑ k, (x p k * s p k) * W2t k q + b2 q):

the format changes are the identity, each matrix-unit product onto a zero accumulator is the plain sum over
the shared axis, and a bias row broadcast down the block reads its one row.
-/

noncomputable section

open scoped BigOperators

namespace Cert.KernelIdeal.Pay

open Cert.KernelIdeal Cert.KernelIdeal.Gen Idealize.ShloMosaic Idealize.ShloMosaic.ValueIdx Cert.BiInteraction

/-- One linear branch of the body at entry (p, q): the matrix-unit product of the block a against the weight w,
    plus the bias row r broadcast down the block. -/
theorem branch_apply (a : FVec Ideal S2000x128 .bf16) (w : FVec Ideal S128x128 .bf16) (r : FVec Ideal S1x128 .f32)
    (p : Fin 2000) (q : Fin 128) :
    addf (matmul dot_S2000x128_S128x128_S2000x128_1_0_0_1_n_n none a
        (shapeCast S128x128 w Facts₀.shapeCasts_S128x128_S128x128) (constant S2000x128 .f32 0x00000000#32))
      (broadcastTo S2000x128 (shapeCast S1x128 r Facts₀.shapeCasts_S1x128_S1x128) Facts₀.broadcasts_S1x128_S2000x128) (ix2 p q)
      = (∑ k : Fin 128, a (ix2 p k) * w (ix2 k q)) + r (ix2 (0 : Fin 1) q) := by
  rw [shapeCast_self, shapeCast_self]
  refine congrArg₂ (· + ·) ?_ (broadcastTo_1b_ab_apply r _ p q)
  refine (Ideal.matmul_constant_zero_apply _ none a w (ix2 p q)).trans ?_
  exact dot_sum Facts₀.dot_S2000x128_S128x128_S2000x128_1_0_0_1_n_n_wf a w p q

/-- The stored value at entry (p, q) of the block. -/
theorem pay_apply (v0 : Vec Ideal S2000x128 .f32) (v1 : Vec Ideal S2000x128 .bf16) (v8 v10 : Vec Ideal S128x128 .bf16)
    (v13 v18 : Vec Ideal S1x128 .f32) (p : Fin 2000) (q : Fin 128) :
    k0_pay1 (F := Ideal) v0 v1 v8 v10 v13 v18 (ix2 p q)
      = lrelu ((∑ k : Fin 128, (v0 (ix2 p k) + v1 (ix2 p k)) * v8 (ix2 k q)) + v13 (ix2 (0 : Fin 1) q))
        + lrelu ((∑ k : Fin 128, (v0 (ix2 p k) * v1 (ix2 p k)) * v10 (ix2 k q)) + v18 (ix2 (0 : Fin 1) q)) := by
  unfold k0_pay1
  rw [shapeCast_self]
  refine congrArg₂ (fun a b => lrelu a + lrelu b) ?_ ?_
  · exact branch_apply _ v8 v13 p q
  · exact branch_apply _ v10 v18 p q

/-- The same at any index of the block, by its two coordinates. -/
theorem pay_at (v0 : Vec Ideal S2000x128 .f32) (v1 : Vec Ideal S2000x128 .bf16) (v8 v10 : Vec Ideal S128x128 .bf16)
    (v13 v18 : Vec Ideal S1x128 .f32) (y : S2000x128.Idx) :
    k0_pay1 (F := Ideal) v0 v1 v8 v10 v13 v18 y
      = lrelu ((∑ k : Fin 128, (v0 (ix2 (y 0) k) + v1 (ix2 (y 0) k)) * v8 (ix2 k (y 1))) + v13 (ix2 (0 : Fin 1) (y 1)))
        + lrelu ((∑ k : Fin 128, (v0 (ix2 (y 0) k) * v1 (ix2 (y 0) k)) * v10 (ix2 k (y 1))) + v18 (ix2 (0 : Fin 1) (y 1))) := by
  obtain ⟨p, q, rfl⟩ : ∃ (p : Fin 2000) (q : Fin 128), y = ix2 p q := ⟨y 0, y 1, eq_ix2 y⟩
  exact pay_apply v0 v1 v8 v10 v13 v18 p q

end Cert.KernelIdeal.Pay

end
-- ==== Proof.KernelValue.lean ====
import proofs.«164715_j63015760167158_2_alg».proof.Proof.Gen.KernelIdeal.Value
import proofs.«164715_j63015760167158_2_alg».proof.Proof.KernelPay

/-!
The kernel's result array as one function of the arrays the region finds.

The grid has 25 points; point t stages rows 2000 t … 2000 t + 1999 of the node embeddings and of the aggregated
messages, the whole of each transposed weight and each bias row, and writes back rows 2000 t … 2000 t + 1999 of
the result. So what point t writes back is its block of the bi-interaction function of the whole arrays, the
25 blocks tile the 50000 rows, and the array after the run is that function.
-/

noncomputable section

open scoped BigOperators

open Idealize.ShloMosaic Idealize.ShloMosaic.TcCoe Idealize.SL.Sem
open Idealize.ShloMosaic.Pipeline (Dat)

namespace Cert.KernelIdeal.Hand

open Cert.KernelIdeal Cert.KernelIdeal.Gen Cert.KernelIdeal.Value Idealize.ShloMosaic.ValueIdx Cert.BiInteraction

variable (m : (ℓ : Loc nD τ sig) → Buf (Elt Ideal) ℓ) (ρ : Dev nD → PrngReg)

theorem hz : (![0, 0] : Fin 2 → Nat) = fun _ => 0 := funext fun a => by fin_cases a <;> rfl

/-- The index maps over the grid: the two row-blocked inputs and the output are at block row t, every other
    window at its one block. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- The node-embedding block at point t is rows 2000 t … of the array. -/
theorem blk0_apply (c : Dev nD) (t : Fin cfg0.N) (x : S2000x128.Idx) (k : S50000x128.Idx)
    (hk0 : (k 0).val = 2000 * t.val + (x 0).val) (hk1 : (k 1).val = (x 1).val) :
    (iblk m c 0 t : Vec Ideal S2000x128 .f32) x = (V m c main_arg0 : S50000x128.Idx → EReal) k := by
  obtain ⟨e0, e1, -⟩ := idx_facts t
  unfold iblk
  rw [View.read_apply]
  show V m c main_arg0 _ = V m c main_arg0 _
  refine congrArg (V m c main_arg0) (funext fun a => Fin.ext ?_)
  match a with
  | ⟨0, _⟩ => show win0_0.index t 0 * 2000 + 1 * (x 0).val = (k 0).val; rw [e0, hk0]; omega
  | ⟨1, _⟩ => show win0_0.index t 1 * 128 + 1 * (x 1).val = (k 1).val; rw [e1, hk1]; omega

/-- The message block at point t is the same rows of the aggregated messages. -/
theorem blk1_apply (c : Dev nD) (t : Fin cfg0.N) (x : S2000x128.Idx) (k : S50000x128.Idx)
    (hk0 : (k 0).val = 2000 * t.val + (x 0).val) (hk1 : (k 1).val = (x 1).val) :
    (iblk m c 1 t : Vec Ideal S2000x128 .bf16) x = (V m c main_v13 : S50000x128.Idx → EReal) k := by
  obtain ⟨-, -, e0, e1, -⟩ := idx_facts t
  unfold iblk
  rw [View.read_apply]
  show V m c main_v13 _ = V m c main_v13 _
  refine congrArg (V m c main_v13) (funext fun a => Fin.ext ?_)
  match a with
  | ⟨0, _⟩ => show win0_1.index t 0 * 2000 + 1 * (x 0).val = (k 0).val; rw [e0, hk0]; omega
  | ⟨1, _⟩ => show win0_1.index t 1 * 128 + 1 * (x 1).val = (k 1).val; rw [e1, hk1]; omega

/-- The first weight's block is the whole transposed weight at every point. -/
theorem blk2_apply (c : Dev nD) (t : Fin cfg0.N) (x : S128x128.Idx) :
    (iblk m c 2 t : Vec Ideal S128x128 .bf16) x = (V m c main_v15 : S128x128.Idx → EReal) x := by
  obtain ⟨-, -, -, -, e0, e1, -⟩ := idx_facts t
  unfold iblk
  rw [View.read_apply]
  show V m c main_v15 _ = V m c main_v15 _
  refine congrArg (V m c main_v15) (funext fun a => Fin.ext ?_)
  match a with
  | ⟨0, _⟩ => show win0_2.index t 0 * 128 + 1 * (x 0).val = (x 0).val; rw [e0]; omega
  | ⟨1, _⟩ => show win0_2.index t 1 * 128 + 1 * (x 1).val = (x 1).val; rw [e1]; omega

/-- The first bias's block is its whole row. -/
theorem blk3_apply (c : Dev nD) (t : Fin cfg0.N) (x : S1x128.Idx) :
    (iblk m c 3 t : Vec Ideal S1x128 .f32) x = (V m c main_v18 : S1x128.Idx → EReal) x := by
  obtain ⟨-, -, -, -, -, -, e0, e1, -⟩ := idx_facts t
  unfold iblk
  rw [View.read_apply]
  show V m c main_v18 _ = V m c main_v18 _
  refine congrArg (V m c main_v18) (funext fun a => Fin.ext ?_)
  match a with
  | ⟨0, _⟩ => show win0_3.index t 0 * 1 + 1 * (x 0).val = (x 0).val; rw [e0]; omega
  | ⟨1, _⟩ => show win0_3.index t 1 * 128 + 1 * (x 1).val = (x 1).val; rw [e1]; omega

/-- The second weight's block is the whole transposed weight. -/
theorem blk4_apply (c : Dev nD) (t : Fin cfg0.N) (x : S128x128.Idx) :
    (iblk m c 4 t : Vec Ideal S128x128 .bf16) x = (V m c main_v17 : S128x128.Idx → EReal) x := by
  obtain ⟨-, -, -, -, -, -, -, -, e0, e1, -⟩ := idx_facts t
  unfold iblk
  rw [View.read_apply]
  show V m c main_v17 _ = V m c main_v17 _
  refine congrArg (V m c main_v17) (funext fun a => Fin.ext ?_)
  match a with
  | ⟨0, _⟩ => show win0_4.index t 0 * 128 + 1 * (x 0).val = (x 0).val; rw [e0]; omega
  | ⟨1, _⟩ => show win0_4.index t 1 * 128 + 1 * (x 1).val = (x 1).val; rw [e1]; omega

/-- The second bias's block is its whole row. -/
theorem blk5_apply (c : Dev nD) (t : Fin cfg0.N) (x : S1x128.Idx) :
    (iblk m c 5 t : Vec Ideal S1x128 .f32) x = (V m c main_v19 : S1x128.Idx → EReal) x := by
  obtain ⟨-, -, -, -, -, -, -, -, -, -, e0, e1, -⟩ := idx_facts t
  unfold iblk
  rw [View.read_apply]
  show V m c main_v19 _ = V m c main_v19 _
  refine congrArg (V m c main_v19) (funext fun a => Fin.ext ?_)
  match a with
  | ⟨0, _⟩ => show win0_5.index t 0 * 1 + 1 * (x 0).val = (x 0).val; rw [e0]; omega
  | ⟨1, _⟩ => show win0_5.index t 1 * 128 + 1 * (x 1).val = (x 1).val; rw [e1]; omega

/-- The bi-interaction function of the arrays as the region finds them. -/
abbrev result (c : Dev nD) : S50000x128.Idx → EReal :=
  bi (V m c main_arg0) (V m c main_v13) (V m c main_v15) (V m c main_v17) (V m c main_v18) (V m c main_v19)

end Cert.KernelIdeal.Hand

end
-- ==== Proof.KernelFinal.lean ====
import proofs.«164715_j63015760167158_2_alg».proof.Proof.KernelValue

/-!
From the blocks to the whole result array of the kernel.

Point t writes back rows 2000 t … 2000 t + 1999: entry (p, q) of its block is entry (2000 t + p, q) of the array, and
the stored value there reads row 2000 t + p of the two row-blocked inputs and the whole of the weights and biases — the
bi-interaction function at (2000 t + p, q). Row r lies in the block of point r / 2000, so the 25 blocks cover the
array and the array after the run is that function.
-/

noncomputable section

open scoped BigOperators

open Idealize.ShloMosaic Idealize.ShloMosaic.TcCoe Idealize.SL.Sem
open Idealize.ShloMosaic.Pipeline (Dat)

namespace Cert.KernelIdeal.Hand

open Cert.KernelIdeal Cert.KernelIdeal.Gen Cert.KernelIdeal.Value Idealize.ShloMosaic.ValueIdx Cert.BiInteraction

variable (m : (ℓ : Loc nD τ sig) → Buf (Elt Ideal) ℓ) (ρ : Dev nD → PrngReg)

/-- What point t writes back is its block of the result. -/
theorem flushed_eq (c : Dev nD) (t : Fin cfg0.N) :
    (dats m 0 c).flushed 6 t = ((cfg0.win 6).blk t).view.read (Elt Ideal) (result m c) := by
  have hN : cfg0.N = 25 := N_0
  obtain ⟨-, -, -, -, -, -, -, -, -, -, -, -, e0, e1⟩ := idx_facts t
  rw [flushed6]
  unfold out0_6
  rw [View.canon_unit_zero hz]
  simp only [View.ld_unit_zero (S := S2000x128) hz, View.ld_unit_zero (S := S128x128) hz, View.ld_unit_zero (S := S1x128) hz]
  funext y
  rw [View.read_apply]
  have h0 : (y 0).val < 2000 := (y 0).isLt
  have h1 : (y 1).val < 128 := (y 1).isLt
  have hr : 2000 * t.val + (y 0).val < 50000 := by have := t.isLt; omega
  have he : ((cfg0.win 6).blk t).view.emb y
      = (ix2 (⟨2000 * t.val + (y 0).val, hr⟩ : Fin 50000) (⟨(y 1).val, h1⟩ : Fin 128) : S50000x128.Idx) := by
    funext a
    apply Fin.ext
    match a with
    | ⟨0, _⟩ => show win0_6.index t 0 * 2000 + 1 * (y 0).val = 2000 * t.val + (y 0).val; rw [e0]; omega
    | ⟨1, _⟩ => show win0_6.index t 1 * 128 + 1 * (y 1).val = (y 1).val; rw [e1]; omega
  rw [he]
  show k0_pay1 (iblk m c 0 t) (iblk m c 1 t) (iblk m c 2 t) (iblk m c 4 t) (iblk m c 3 t) (iblk m c 5 t) y
    = biAt (V m c main_arg0) (V m c main_v13) (V m c main_v15) (V m c main_v17) (V m c main_v18) (V m c main_v19)
        ⟨2000 * t.val + (y 0).val, hr⟩ ⟨(y 1).val, h1⟩
  refine (Pay.pay_at (iblk m c 0 t) (iblk m c 1 t) (iblk m c 2 t) (iblk m c 4 t) (iblk m c 3 t) (iblk m c 5 t) y).trans ?_
  unfold biAt lin
  refine congrArg₂ (fun a b => lrelu a + lrelu b) ?_ ?_
  · refine congrArg₂ (· + ·) (Finset.sum_congr rfl fun k _ => ?_) ?_
    · rw [blk0_apply m c t (ix2 (y 0) k) (ix2 ⟨2000 * t.val + (y 0).val, hr⟩ k) rfl rfl,
        blk1_apply m c t (ix2 (y 0) k) (ix2 ⟨2000 * t.val + (y 0).val, hr⟩ k) rfl rfl,
        blk2_apply m c t (ix2 k (y 1))]
      rfl
    · exact blk3_apply m c t (ix2 (0 : Fin 1) (y 1))
  · refine congrArg₂ (· + ·) (Finset.sum_congr rfl fun k _ => ?_) ?_
    · rw [blk0_apply m c t (ix2 (y 0) k) (ix2 ⟨2000 * t.val + (y 0).val, hr⟩ k) rfl rfl,
        blk1_apply m c t (ix2 (y 0) k) (ix2 ⟨2000 * t.val + (y 0).val, hr⟩ k) rfl rfl,
        blk4_apply m c t (ix2 k (y 1))]
      rfl
    · exact blk5_apply m c t (ix2 (0 : Fin 1) (y 1))

/-- An index of the array is in point t's block iff each coordinate is in the block's range on its axis. -/
theorem mem_blk (t : Fin cfg0.N) (i : S50000x128.Idx) :
    i ∈ ((cfg0.win 6).blk t).view.set ↔ ∀ a : Fin 2, win0_6.index t a * S2000x128.size a ≤ (i a).val
      ∧ (i a).val < win0_6.index t a * S2000x128.size a + S2000x128.size a := by
  show i ∈ ((View.whole main_v20).slice (win0_6.rect t)).set ↔ _
  rw [View.set_slice_whole, Rect.mem_set_unit]
  exact Iff.rfl

/-- Row r lies in the block of point r / 2000: the blocks cover the array. -/
theorem cover (i : S50000x128.Idx) :
    ∃ t : Fin cfg0.N, (cfg0.win 6).flush t = true ∧ i ∈ ((cfg0.win 6).blk t).view.set := by
  have hN : cfg0.N = 25 := N_0
  have hi0 : (i 0).val < 50000 := (i 0).isLt
  have hi1 : (i 1).val < 128 := (i 1).isLt
  have ht : (i 0).val / 2000 < cfg0.N := by rw [hN]; omega
  obtain ⟨-, -, -, -, -, -, -, -, -, -, -, -, e0, e1⟩ := idx_facts ⟨(i 0).val / 2000, ht⟩
  have e0' : win0_6.index ⟨(i 0).val / 2000, ht⟩ (0 : Fin 2) = (i 0).val / 2000 := e0
  refine ⟨⟨(i 0).val / 2000, ht⟩, flush0_6 _, ?_⟩
  rw [mem_blk]
  intro a
  match a with
  | ⟨0, _⟩ =>
    show win0_6.index ⟨(i 0).val / 2000, ht⟩ 0 * 2000 ≤ (i 0).val
      ∧ (i 0).val < win0_6.index ⟨(i 0).val / 2000, ht⟩ 0 * 2000 + 2000
    rw [e0']; omega
  | ⟨1, _⟩ =>
    show win0_6.index ⟨(i 0).val / 2000, ht⟩ 1 * 128 ≤ (i 1).val
      ∧ (i 1).val < win0_6.index ⟨(i 0).val / 2000, ht⟩ 1 * 128 + 128
    rw [e1]; omega

/-- The result array after the run is the bi-interaction function of the arrays the region finds. -/
theorem final (c : Dev nD) : (dats m 0 c).arrAt 6 cfg0.N = result m c :=
  (dats m 0 c).arrAt_eq_of_cover 6 (result m c) (fun t _ => flushed_eq m c t) cover

end Cert.KernelIdeal.Hand

end
-- ==== Proof.KernelHost.lean ====
import proofs.«164715_j63015760167158_2_alg».proof.Proof.Gen.KernelIdeal.Frame
import Idealize.ShloMosaic.Lib.StableHlo.Run

/-!
The arrays the kernel's windows stage, as terms of the program's arguments.

Before the region the program computes, on the host, the sparse product (gather the rows of ego named by cols,
scale by vals, add into the rows named by rows of a zero array) narrowed to the kernel's input format; each weight
transposed and narrowed; and each bias reshaped to one row. These are what windows 1 to 5 find.
-/

noncomputable section

namespace Cert.KernelIdeal.Host

open Cert.KernelIdeal Cert.KernelIdeal.Gen Idealize.ShloMosaic Idealize.ShloMosaic.TcCoe Idealize.SL.Sem
  Idealize.ShloMosaic.StableHlo

variable {F : FTy → Type} [FloatOps F]
variable (m : (ℓ : Loc nD τ sig) → Buf (Elt F) ℓ)

/-- The sparse product: the rows of ego named by cols (a negative index counted from the end), each scaled by its
    entry of vals, added into the rows named by rows of a zero array. -/
def spmm (ego : FVec F S50000x128 .f32) (vals : FVec F S640000 .f32) (rows cols : IVec S640000 32) : FVec F S50000x128 .f32 :=
  Host.scatterAdd scatter_S50000x128_S640000x1_S640000x128_1_0_0_1
    (broadcastInDim S50000x128 ![] bcast_S_S50000x128 (constant S_ .f32 0x00000000#32))
    (broadcastInDim S640000x1 ![0] bcast_S640000_S640000x1_0 rows)
    (mulf (broadcastInDim S640000x128 ![0, 1] bcast_S640000x1_S640000x128_0_1 (broadcastInDim S640000x1 ![0] bcast_S640000_S640000x1_0 vals))
      (Host.gather gather_S50000x128_S640000x1_S640000x128_1_0_n_n_0_1_1128 ego
        (broadcastInDim S640000x1 ![0] bcast_S640000_S640000x1_0
          (select (cmpi .slt cols (broadcastInDim S640000 ![] bcast_S_S640000 (constantI S_ 32 0#32)))
            (addi cols (broadcastInDim S640000 ![] bcast_S_S640000 (constantI S_ 32 50000#32))) cols))))

/-- Window 1's array: the sparse product of the arguments, narrowed. -/
theorem V_side (c : Dev nD) :
    (V m c main_v13 : FVec F S50000x128 .bf16)
      = truncf .bf16 (spmm (m ((c : Thread nD τ).loc main_arg0)) (m ((c : Thread nD τ).loc main_arg1))
          (m ((c : Thread nD τ).loc main_arg6)) (m ((c : Thread nD τ).loc main_arg7))) bitsLt_bf16_f32 := by
  dsimp only [Gen.V, Gen.hostOps0]
  after_results_simp
  rfl

/-- Window 2's array: the first weight transposed, narrowed. -/
theorem V_w1 (c : Dev nD) :
    (V m c main_v15 : FVec F S128x128 .bf16)
      = truncf .bf16 (transpose S128x128 [1, 0] (m ((c : Thread nD τ).loc main_arg2)) transposes_S128x128_S128x128_1_0) bitsLt_bf16_f32 := by
  dsimp only [Gen.V, Gen.hostOps0]
  after_results

/-- Window 4's array: the second weight transposed, narrowed. -/
theorem V_w2 (c : Dev nD) :
    (V m c main_v17 : FVec F S128x128 .bf16)
      = truncf .bf16 (transpose S128x128 [1, 0] (m ((c : Thread nD τ).loc main_arg4)) transposes_S128x128_S128x128_1_0) bitsLt_bf16_f32 := by
  dsimp only [Gen.V, Gen.hostOps0]
  after_results

/-- Window 3's array: the first bias as one row. -/
theorem V_b1 (c : Dev nD) :
    (V m c main_v18 : FVec F S1x128 .f32) = shapeCast S1x128 (m ((c : Thread nD τ).loc main_arg3)) shapeCasts_S128_S1x128 := by
  dsimp only [Gen.V, Gen.hostOps0]
  after_results
  rfl

/-- Window 5's array: the second bias as one row. -/
theorem V_b2 (c : Dev nD) :
    (V m c main_v19 : FVec F S1x128 .f32) = shapeCast S1x128 (m ((c : Thread nD τ).loc main_arg5)) shapeCasts_S128_S1x128 := by
  dsimp only [Gen.V, Gen.hostOps0]
  after_results
  rfl

end Cert.KernelIdeal.Host

end
-- ==== Proof.RefRun.lean ====
import proofs.«164715_j63015760167158_2_alg».proof.Proof.Gen.ReferenceIdeal
import Idealize.ShloMosaic.Lib.StableHlo.Run

/-!
The reference program as a straight line of host operations, and what it computes.

Its entry function calls the outlined leaky-ReLU twice, and that function calls the outlined select; with the
calls unfolded at their sites the program is a list of forty-five operations. Every weakly fair execution runs
them in order, so each buffer ends at the composition of the operations that lead to it. The result is

  lrelu ((ego + side) · W1ᵀ + b1) + lrelu ((ego * side) · W2ᵀ + b2),

where side is the sparse product (gather the rows of ego named by cols, scale by vals, add into the rows named
by rows) passed through the narrow float format and back, and lrelu x is x where x ≥ 0 and slope · x elsewhere.
-/

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations in order, the two leaky-ReLU calls (seven operations each) unfolded over their own buffers. -/
abbrev ops : List (HloOp τ sig (Elt F)) :=
  [ unary main_arg1 main_v0 (broadcastInDim S640000x1 ![0] bcast_S640000_S640000x1_0 : (⟨S640000, .f32⟩ : BufTy).Contents (Elt F) → (⟨S640000x1, .f32⟩ : BufTy).Contents (Elt F)),
    nullary main_c (constantI S_ 32 0#32),
    unary main_c main_v1 (broadcastInDim S640000 ![] bcast_S_S640000 : (⟨S_, .i32⟩ : BufTy).Contents (Elt F) → (⟨S640000, .i32⟩ : BufTy).Contents (Elt F)),
    binary main_arg7 main_v1 main_v2 (cmpi .slt : (⟨S640000, .i32⟩ : BufTy).Contents (Elt F) → (⟨S640000, .i32⟩ : BufTy).Contents (Elt F) → (⟨S640000, .i1⟩ : BufTy).Contents (Elt F)),
    nullary main_c_0 (constantI S_ 32 50000#32),
    unary main_c_0 main_v3 (broadcastInDim S640000 ![] bcast_S_S640000 : (⟨S_, .i32⟩ : BufTy).Contents (Elt F) → (⟨S640000, .i32⟩ : BufTy).Contents (Elt F)),
    binary main_arg7 main_v3 main_v4 (addi : (⟨S640000, .i32⟩ : BufTy).Contents (Elt F) → (⟨S640000, .i32⟩ : BufTy).Contents (Elt F) → (⟨S640000, .i32⟩ : BufTy).Contents (Elt F)),
    ternary main_v2 main_v4 main_arg7 main_v5 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    unary main_v5 main_v6 (broadcastInDim S640000x1 ![0] bcast_S640000_S640000x1_0 : (⟨S640000, .i32⟩ : BufTy).Contents (Elt F) → (⟨S640000x1, .i32⟩ : BufTy).Contents (Elt F)),
    binary main_arg0 main_v6 main_v7 ((fun x i => Host.gather gather_S50000x128_S640000x1_S640000x128_1_0_n_n_0_1_1128 x i) : (⟨S50000x128, .f32⟩ : BufTy).Contents (Elt F) → (⟨S640000x1, .i32⟩ : BufTy).Contents (Elt F) → (⟨S640000x128, .f32⟩ : BufTy).Contents (Elt F)),
    unary main_v0 main_v8 (broadcastInDim S640000x128 ![0, 1] bcast_S640000x1_S640000x128_0_1 : (⟨S640000x1, .f32⟩ : BufTy).Contents (Elt F) → (⟨S640000x128, .f32⟩ : BufTy).Contents (Elt F)),
    binary main_v8 main_v7 main_v9 (mulf : (⟨S640000x128, .f32⟩ : BufTy).Contents (Elt F) → (⟨S640000x128, .f32⟩ : BufTy).Contents (Elt F) → (⟨S640000x128, .f32⟩ : BufTy).Contents (Elt F)),
    nullary main_cst (constant S_ .f32 0x00000000#32),
    unary main_cst main_v10 (broadcastInDim S50000x128 ![] bcast_S_S50000x128 : (⟨S_, .f32⟩ : BufTy).Contents (Elt F) → (⟨S50000x128, .f32⟩ : BufTy).Contents (Elt F)),
    unary main_arg6 main_v11 (broadcastInDim S640000x1 ![0] bcast_S640000_S640000x1_0 : (⟨S640000, .i32⟩ : BufTy).Contents (Elt F) → (⟨S640000x1, .i32⟩ : BufTy).Contents (Elt F)),
    ternary main_v10 main_v11 main_v9 main_v12 ((fun x i u => Host.scatterAdd scatter_S50000x128_S640000x1_S640000x128_1_0_0_1 x i u) : (⟨S50000x128, .f32⟩ : BufTy).Contents (Elt F) → (⟨S640000x1, .i32⟩ : BufTy).Contents (Elt F) → (⟨S640000x128, .f32⟩ : BufTy).Contents (Elt F) → (⟨S50000x128, .f32⟩ : BufTy).Contents (Elt F)),
    unary main_v12 main_v13 ((truncf .bf16 · bitsLt_bf16_f32) : (⟨S50000x128, .f32⟩ : BufTy).Contents (Elt F) → (⟨S50000x128, .bf16⟩ : BufTy).Contents (Elt F)),
    unary main_v13 main_v14 ((extf .f32 · bitsLt_bf16_f32) : (⟨S50000x128, .bf16⟩ : BufTy).Contents (Elt F) → (⟨S50000x128, .f32⟩ : BufTy).Contents (Elt F)),
    binary main_arg0 main_v14 main_v15 (addf : (⟨S50000x128, .f32⟩ : BufTy).Contents (Elt F) → (⟨S50000x128, .f32⟩ : BufTy).Contents (Elt F) → (⟨S50000x128, .f32⟩ : BufTy).Contents (Elt F)),
    unary main_arg2 main_v16 ((transpose S128x128 [1, 0] · transposes_S128x128_S128x128_1_0) : (⟨S128x128, .f32⟩ : BufTy).Contents (Elt F) → (⟨S128x128, .f32⟩ : BufTy).Contents (Elt F)),
    binary main_v15 main_v16 main_v17 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg3 main_v18 (broadcastInDim S1x128 ![1] bcast_S128_S1x128_1 : (⟨S128, .f32⟩ : BufTy).Contents (Elt F) → (⟨S1x128, .f32⟩ : BufTy).Contents (Elt F)),
    unary main_v18 main_v19 (broadcastInDim S50000x128 ![0, 1] bcast_S1x128_S50000x128_0_1 : (⟨S1x128, .f32⟩ : BufTy).Contents (Elt F) → (⟨S50000x128, .f32⟩ : BufTy).Contents (Elt F)),
    binary main_v17 main_v19 main_v20 (addf : (⟨S50000x128, .f32⟩ : BufTy).Contents (Elt F) → (⟨S50000x128, .f32⟩ : BufTy).Contents (Elt F) → (⟨S50000x128, .f32⟩ : BufTy).Contents (Elt F)),
    TRef.nullary main_call0.cst (constant S_ .f32 0x00000000#32),
    TRef.unary main_call0.cst main_call0.v0 (broadcastInDim S50000x128 ![] bcast_S_S50000x128),
    TRef.binary (.of main_v20) main_call0.v0 main_call0.v1 (cmpf .oge),
    TRef.nullary main_call0.cst_0 (constant S_ .f32 0x3C23D70A#32),
    TRef.unary main_call0.cst_0 main_call0.v2 (broadcastInDim S50000x128 ![] bcast_S_S50000x128),
    TRef.binary main_call0.v2 (.of main_v20) main_call0.v3 mulf,
    TRef.ternary main_call0.v1 (.of main_v20) main_call0.v3 main_call0.call0.v0 select,
    binary main_arg0 main_v14 main_v22 (mulf : (⟨S50000x128, .f32⟩ : BufTy).Contents (Elt F) → (⟨S50000x128, .f32⟩ : BufTy).Contents (Elt F) → (⟨S50000x128, .f32⟩ : BufTy).Contents (Elt F)),
    unary main_arg4 main_v23 ((transpose S128x128 [1, 0] · transposes_S128x128_S128x128_1_0) : (⟨S128x128, .f32⟩ : BufTy).Contents (Elt F) → (⟨S128x128, .f32⟩ : BufTy).Contents (Elt F)),
    binary main_v22 main_v23 main_v24 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg5 main_v25 (broadcastInDim S1x128 ![1] bcast_S128_S1x128_1 : (⟨S128, .f32⟩ : BufTy).Contents (Elt F) → (⟨S1x128, .f32⟩ : BufTy).Contents (Elt F)),
    unary main_v25 main_v26 (broadcastInDim S50000x128 ![0, 1] bcast_S1x128_S50000x128_0_1 : (⟨S1x128, .f32⟩ : BufTy).Contents (Elt F) → (⟨S50000x128, .f32⟩ : BufTy).Contents (Elt F)),
    binary main_v24 main_v26 main_v27 (addf : (⟨S50000x128, .f32⟩ : BufTy).Contents (Elt F) → (⟨S50000x128, .f32⟩ : BufTy).Contents (Elt F) → (⟨S50000x128, .f32⟩ : BufTy).Contents (Elt F)),
    TRef.nullary main_call1.cst (constant S_ .f32 0x00000000#32),
    TRef.unary main_call1.cst main_call1.v0 (broadcastInDim S50000x128 ![] bcast_S_S50000x128),
    TRef.binary (.of main_v27) main_call1.v0 main_call1.v1 (cmpf .oge),
    TRef.nullary main_call1.cst_0 (constant S_ .f32 0x3C23D70A#32),
    TRef.unary main_call1.cst_0 main_call1.v2 (broadcastInDim S50000x128 ![] bcast_S_S50000x128),
    TRef.binary main_call1.v2 (.of main_v27) main_call1.v3 mulf,
    TRef.ternary main_call1.v1 (.of main_v27) main_call1.v3 main_call1.call0.v0 select,
    binary main_v21 main_v28 main_v29 (addf : (⟨S50000x128, .f32⟩ : BufTy).Contents (Elt F) → (⟨S50000x128, .f32⟩ : BufTy).Contents (Elt F) → (⟨S50000x128, .f32⟩ : BufTy).Contents (Elt F)) ]

-- forty-five binds re-associated: the rewrite under the chain recurses once per statement
set_option maxRecDepth 2048 in
/-- The entry function is that straight line: the outlined functions unfolded at their calls, sequencing reassociated. -/
theorem main_eq (c : Dev nD) : main (F := F) c = seq ops := by
  simp only [main, fn_leaky_relu.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., unary_bufs_sub .., binary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., binary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., binary_bufs_sub ..⟩

/-- Every weakly fair execution terminates with each buffer at the fold of the operations over the launch contents. -/
theorem run_ops (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefRun

end
-- ==== Proof.RefValue.lean ====
import proofs.«164715_j63015760167158_2_alg».proof.Proof.RefRun
import proofs.«164715_j63015760167158_2_alg».proof.Proof.Spec
import proofs.«164715_j63015760167158_2_alg».proof.Proof.DotSum
import Idealize.ShloMosaic.Lib.ValueLayout
import Idealize.ShloMosaic.Lib.Pipeline.Value

/-!
The reference's result as a term of its arguments, and that term read entry by entry on the extended reals.

The fold of the forty-five operations at the result buffer is the composition

  branch (ego + side) W1 b1 + branch (ego * side) W2 b2,    branch A W b = lreluV (A · Wᵀ + rows of b),

with side the sparse product passed through the narrow format and back. On the extended reals the format changes
are the identity, the host's matrix product is the plain sum over the shared axis, the bias broadcast reads the
bias at the column, and the leaky ReLU acts entry by entry: the result is the bi-interaction function of ego, the
sparse product, the transposed weights and the biases as rows.
-/

noncomputable section

open scoped BigOperators

namespace Cert.ReferenceIdeal.RefValue

open Cert.ReferenceIdeal Cert.ReferenceIdeal.Gen Cert.ReferenceIdeal.RefRun Idealize.ShloMosaic Idealize.ShloMosaic.TcCoe
  Idealize.SL.Sem Idealize.ShloMosaic.StableHlo Idealize.ShloMosaic.ValueIdx Cert.BiInteraction

variable {F : FTy → Type} [FloatOps F]

/-- The sparse product: the rows of ego named by cols (a negative index counted from the end), each scaled by its
    entry of vals, added into the rows named by rows of a zero array. -/
def spmm (ego : FVec F S50000x128 .f32) (vals : FVec F S640000 .f32) (rows cols : IVec S640000 32) : FVec F S50000x128 .f32 :=
  Host.scatterAdd scatter_S50000x128_S640000x1_S640000x128_1_0_0_1
    (broadcastInDim S50000x128 ![] bcast_S_S50000x128 (constant S_ .f32 0x00000000#32))
    (broadcastInDim S640000x1 ![0] bcast_S640000_S640000x1_0 rows)
    (mulf (broadcastInDim S640000x128 ![0, 1] bcast_S640000x1_S640000x128_0_1 (broadcastInDim S640000x1 ![0] bcast_S640000_S640000x1_0 vals))
      (Host.gather gather_S50000x128_S640000x1_S640000x128_1_0_n_n_0_1_1128 ego
        (broadcastInDim S640000x1 ![0] bcast_S640000_S640000x1_0
          (select (cmpi .slt cols (broadcastInDim S640000 ![] bcast_S_S640000 (constantI S_ 32 0#32)))
            (addi cols (broadcastInDim S640000 ![] bcast_S_S640000 (constantI S_ 32 50000#32))) cols))))

/-- The leaky ReLU on an array. -/
def lreluV (x : FVec F S50000x128 .f32) : FVec F S50000x128 .f32 :=
  select (cmpf .oge x (broadcastInDim S50000x128 ![] bcast_S_S50000x128 (constant S_ .f32 0x00000000#32))) x
    (mulf (broadcastInDim S50000x128 ![] bcast_S_S50000x128 (constant S_ .f32 0x3C23D70A#32)) x)

/-- A bias as one row. -/
def biasRow (b : FVec F S128 .f32) : FVec F S1x128 .f32 := broadcastInDim S1x128 ![1] bcast_S128_S1x128_1 b

/-- One branch: the input against the transposed weight, plus the bias row down the rows, through the leaky ReLU. -/
def branch (A : FVec F S50000x128 .f32) (Wt : FVec F S128x128 .f32) (b : FVec F S1x128 .f32) : FVec F S50000x128 .f32 :=
  lreluV (addf (Host.dotGeneral dot_S50000x128_S128x128_S50000x128_1_0_0_1_n_n none A Wt)
    (broadcastInDim S50000x128 ![0, 1] bcast_S1x128_S50000x128_0_1 b))

/-- The reference's result as a term of its arguments. -/
def out (ego : FVec F S50000x128 .f32) (vals : FVec F S640000 .f32) (W1 : FVec F S128x128 .f32) (b1 : FVec F S128 .f32)
    (W2 : FVec F S128x128 .f32) (b2 : FVec F S128 .f32) (rows cols : IVec S640000 32) : FVec F S50000x128 .f32 :=
  addf
    (branch (addf ego (extf .f32 (truncf .bf16 (spmm ego vals rows cols) bitsLt_bf16_f32) bitsLt_bf16_f32))
      (transpose S128x128 [1, 0] W1 transposes_S128x128_S128x128_1_0) (biasRow b1))
    (branch (mulf ego (extf .f32 (truncf .bf16 (spmm ego vals rows cols) bitsLt_bf16_f32) bitsLt_bf16_f32))
      (transpose S128x128 [1, 0] W2 transposes_S128x128_S128x128_1_0) (biasRow b2))

attribute [local irreducible] Host.gather Host.scatterAdd in
set_option maxRecDepth 8192 in
set_option maxHeartbeats 400000 in
/-- The fold at the result buffer is that term of the launch contents of the arguments. -/
theorem out_eq (V : Valuation τ sig (Elt F)) :
    after ops V (main_v29 : DevRef τ sig)
      = out (V (main_arg0 : DevRef τ sig)) (V (main_arg1 : DevRef τ sig)) (V (main_arg2 : DevRef τ sig))
          (V (main_arg3 : DevRef τ sig)) (V (main_arg4 : DevRef τ sig)) (V (main_arg5 : DevRef τ sig))
          (V (main_arg6 : DevRef τ sig)) (V (main_arg7 : DevRef τ sig)) := by
  simp only [after_cons, after_nil]
  rfl

end Cert.ReferenceIdeal.RefValue

end
-- ==== Proof.RefRead.lean ====
import proofs.«164715_j63015760167158_2_alg».proof.Proof.RefValue

/-!
The reference's run read back, and its result entry by entry on the extended reals.

Every weakly fair execution of the reference ends with the result buffer at the composed term of the arguments
and the arguments unchanged. On the extended reals that term is the bi-interaction function of ego, the sparse
product, the two transposed weights and the two biases as rows: the format round trip on the sparse product is
the identity, the host's matrix product at an entry is the sum over the shared axis, the bias broadcast down the
rows reads the bias row at the column, and the leaky ReLU acts entry by entry.
-/

noncomputable section

open scoped BigOperators

namespace Cert.ReferenceIdeal.RefValue

open Cert.ReferenceIdeal Cert.ReferenceIdeal.Gen Cert.ReferenceIdeal.RefRun Idealize.ShloMosaic Idealize.ShloMosaic.TcCoe
  Idealize.SL.Sem Idealize.ShloMosaic.StableHlo Idealize.ShloMosaic.ValueIdx Cert.BiInteraction

variable {F : FTy → Type} [FloatOps F]

/-! No operation writes an argument: the fold leaves each as launched. -/

theorem arg0_eq (V : Valuation τ sig (Elt F)) :
    after ops V (main_arg0 : DevRef τ sig) = V (main_arg0 : DevRef τ sig) := by
  simp only [after_cons, after_nil]
  rfl

theorem arg1_eq (V : Valuation τ sig (Elt F)) :
    after ops V (main_arg1 : DevRef τ sig) = V (main_arg1 : DevRef τ sig) := by
  simp only [after_cons, after_nil]
  rfl

theorem arg2_eq (V : Valuation τ sig (Elt F)) :
    after ops V (main_arg2 : DevRef τ sig) = V (main_arg2 : DevRef τ sig) := by
  simp only [after_cons, after_nil]
  rfl

theorem arg3_eq (V : Valuation τ sig (Elt F)) :
    after ops V (main_arg3 : DevRef τ sig) = V (main_arg3 : DevRef τ sig) := by
  simp only [after_cons, after_nil]
  rfl

theorem arg4_eq (V : Valuation τ sig (Elt F)) :
    after ops V (main_arg4 : DevRef τ sig) = V (main_arg4 : DevRef τ sig) := by
  simp only [after_cons, after_nil]
  rfl

theorem arg5_eq (V : Valuation τ sig (Elt F)) :
    after ops V (main_arg5 : DevRef τ sig) = V (main_arg5 : DevRef τ sig) := by
  simp only [after_cons, after_nil]
  rfl

theorem arg6_eq (V : Valuation τ sig (Elt F)) :
    after ops V (main_arg6 : DevRef τ sig) = V (main_arg6 : DevRef τ sig) := by
  simp only [after_cons, after_nil]
  rfl

theorem arg7_eq (V : Valuation τ sig (Elt F)) :
    after ops V (main_arg7 : DevRef τ sig) = V (main_arg7 : DevRef τ sig) := by
  simp only [after_cons, after_nil]
  rfl

/-- Every weakly fair execution terminates with the result at the composed term of the arguments, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v29)
          = out (m ((c.tc : Thread nD τ).loc main_arg0)) (m ((c.tc : Thread nD τ).loc main_arg1)) (m ((c.tc : Thread nD τ).loc main_arg2)) (m ((c.tc : Thread nD τ).loc main_arg3))
              (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v29).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _)⟩)
    (run_ops m ρ)

/-! ## The term at an entry, on the extended reals -/

/-- The leaky ReLU on an array acts entry by entry. -/
theorem lreluV_apply (x : FVec Ideal S50000x128 .f32) (i : S50000x128.Idx) : lreluV x i = lrelu (x i) := rfl

/-- One branch at entry (r, j): row r of the input against column j of the transposed weight, plus the bias at j. -/
theorem branch_apply (A : FVec Ideal S50000x128 .f32) (Wt : FVec Ideal S128x128 .f32) (b : FVec Ideal S1x128 .f32)
    (r : Fin 50000) (j : Fin 128) : branch A Wt b (ix2 r j) = lrelu (lin A Wt b r j) := by
  unfold branch lin
  rw [lreluV_apply]
  refine congrArg lrelu (congrArg₂ (· + ·) ?_ ?_)
  · refine (Ideal.dotGeneral_apply _ none .single A Wt (ix2 r j)).trans ?_
    exact dot_sum Facts₀.dot_S50000x128_S128x128_S50000x128_1_0_0_1_n_n_wf A Wt r j
  · exact broadcastInDim_apply ![0, 1] _ b (ix2 r j) (ix2 (0 : Fin 1) j) fun a =>
      match a with
      | ⟨0, _⟩ => rfl
      | ⟨1, _⟩ => rfl

/-- The reference's result is the bi-interaction function of ego, the sparse product, the transposed weights and
    the biases as rows. -/
theorem out_apply (ego : FVec Ideal S50000x128 .f32) (vals : FVec Ideal S640000 .f32) (W1 : FVec Ideal S128x128 .f32)
    (b1 : FVec Ideal S128 .f32) (W2 : FVec Ideal S128x128 .f32) (b2 : FVec Ideal S128 .f32) (rows cols : IVec S640000 32) :
    out ego vals W1 b1 W2 b2 rows cols
      = bi ego (spmm ego vals rows cols) (transpose S128x128 [1, 0] W1 transposes_S128x128_S128x128_1_0)
          (transpose S128x128 [1, 0] W2 transposes_S128x128_S128x128_1_0) (biasRow b1) (biasRow b2) := by
  funext i
  obtain ⟨r, j, rfl⟩ : ∃ (r : Fin 50000) (j : Fin 128), i = ix2 r j := ⟨i 0, i 1, eq_ix2 i⟩
  rw [bi_ix2]
  unfold out biAt
  show branch _ _ _ (ix2 r j) + branch _ _ _ (ix2 r j) = _
  rw [branch_apply, branch_apply]
  rfl

end Cert.ReferenceIdeal.RefValue

end
-- ==== Proof.Bridge.lean ====
import proofs.«164715_j63015760167158_2_alg».proof.Proof.KernelFinal
import proofs.«164715_j63015760167158_2_alg».proof.Proof.KernelHost
import proofs.«164715_j63015760167158_2_alg».proof.Proof.RefRead

/-!
The kernel's result and the reference's result are one function of the arguments.

The kernel's result array is the bi-interaction function of the arrays its windows stage: ego itself, the narrowed
sparse product, the narrowed transposed weights and the biases reshaped to rows. The reference's is the same
function of ego, the sparse product, the transposed weights and the biases broadcast to rows. On the extended
reals narrowing is the identity, the two programs' sparse products are one term of the same host operations, and a
vector reshaped to one row is the vector broadcast to one row.
-/

noncomputable section

namespace Cert.Bridge

open Idealize.ShloMosaic Idealize.ShloMosaic.TcCoe Idealize.SL.Sem Idealize.ShloMosaic.ValueIdx Cert.BiInteraction

/-- The bi-interaction function of equal arrays is the same array. -/
theorem bi_congr {a a' s s' : SN.Idx → EReal} {w1 w1' w2 w2' : SW.Idx → EReal} {b1 b1' b2 b2' : SB.Idx → EReal}
    (ha : a = a') (hs : s = s') (h1 : w1 = w1') (h2 : w2 = w2') (h3 : b1 = b1') (h4 : b2 = b2') :
    bi a s w1 w2 b1 b2 = bi a' s' w1' w2' b1' b2' := by
  subst ha hs h1 h2 h3 h4
  rfl

/-- Narrowing a float format is the identity on the extended reals. -/
theorem truncf_id {s : Shape} {φ ψ : FTy} (x : FVec Ideal s φ) (h : ψ.bits < φ.bits) :
    (truncf ψ x h : s.Idx → EReal) = x := rfl

/-- The two programs compute the sparse product by the same host operations of the same arguments. -/
theorem spmm_eq {F : FTy → Type} [FloatOps F] (ego : FVec F Cert.KernelIdeal.S50000x128 .f32)
    (vals : FVec F Cert.KernelIdeal.S640000 .f32) (rows cols : IVec Cert.KernelIdeal.S640000 32) :
    Cert.KernelIdeal.Host.spmm ego vals rows cols = Cert.ReferenceIdeal.RefValue.spmm ego vals rows cols := by
  unfold Cert.KernelIdeal.Host.spmm Cert.ReferenceIdeal.RefValue.spmm
  rfl

/-- The two programs transpose a weight by the same operation. -/
theorem transpose_eq {F : FTy → Type} [FloatOps F] (W : FVec F Cert.KernelIdeal.S128x128 .f32) :
    transpose Cert.KernelIdeal.S128x128 [1, 0] W Cert.KernelIdeal.Facts₀.transposes_S128x128_S128x128_1_0
      = transpose Cert.ReferenceIdeal.S128x128 [1, 0] W Cert.ReferenceIdeal.Facts₀.transposes_S128x128_S128x128_1_0 := rfl

/-- A vector reshaped to one row is the vector broadcast to one row: both read the vector at the column. -/
theorem bias_row (b : FVec Ideal Cert.ReferenceIdeal.S128 .f32) :
    shapeCast Cert.KernelIdeal.S1x128 b Cert.KernelIdeal.Facts₀.shapeCasts_S128_S1x128
      = Cert.ReferenceIdeal.RefValue.biasRow (F := Ideal) b := by
  funext i
  obtain ⟨u, q, rfl⟩ : ∃ (u : Fin 1) (q : Fin 128), i = ix2 u q := ⟨i 0, i 1, eq_ix2 i⟩
  refine (shapeCast_a_1a_apply b _ u q).trans ?_
  unfold Cert.ReferenceIdeal.RefValue.biasRow
  exact (broadcastInDim_apply ![1] _ b (ix2 u q) (ix1 q) fun a => match a with | ⟨0, _⟩ => rfl).symm

variable (m : (ℓ : Loc Cert.KernelIdeal.nD Cert.KernelIdeal.τ Cert.KernelIdeal.sig) → Buf (Elt Ideal) ℓ)
  (c : Dev Cert.KernelIdeal.nD)

/-- What window 1 stages is the sparse product of the arguments. -/
theorem side_eq : (Cert.KernelIdeal.Gen.V m c Cert.KernelIdeal.main_v13 : SN.Idx → EReal)
    = Cert.ReferenceIdeal.RefValue.spmm (F := Ideal) (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg6)) (m ((c : Thread Cert.KernelIdeal.nD Cert.KernelIdeal.τ).loc Cert.KernelIdeal.main_arg7)) :=
  (Cert.KernelIdeal.Host.V_side m c).trans
    ((truncf_id (ψ := .bf16) _ Cert.KernelIdeal.Facts₀.bitsLt_bf16_f32).trans (spmm_eq (F := Ideal) (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg6)) (m ((c : Thread Cert.KernelIdeal.nD Cert.KernelIdeal.τ).loc Cert.KernelIdeal.main_arg7))))

/-- What window 2 stages is the first weight transposed. -/
theorem w1_eq : (Cert.KernelIdeal.Gen.V m c Cert.KernelIdeal.main_v15 : SW.Idx → EReal)
    = transpose Cert.ReferenceIdeal.S128x128 [1, 0] (m ((c : Thread Cert.KernelIdeal.nD Cert.KernelIdeal.τ).loc Cert.KernelIdeal.main_arg2)) Cert.ReferenceIdeal.Facts₀.transposes_S128x128_S128x128_1_0 :=
  (Cert.KernelIdeal.Host.V_w1 m c).trans
    ((truncf_id (ψ := .bf16) _ Cert.KernelIdeal.Facts₀.bitsLt_bf16_f32).trans (transpose_eq (F := Ideal) (m ((c : Thread Cert.KernelIdeal.nD Cert.KernelIdeal.τ).loc Cert.KernelIdeal.main_arg2))))

/-- What window 4 stages is the second weight transposed. -/
theorem w2_eq : (Cert.KernelIdeal.Gen.V m c Cert.KernelIdeal.main_v17 : SW.Idx → EReal)
    = transpose Cert.ReferenceIdeal.S128x128 [1, 0] (m ((c : Thread Cert.KernelIdeal.nD Cert.KernelIdeal.τ).loc Cert.KernelIdeal.main_arg4)) Cert.ReferenceIdeal.Facts₀.transposes_S128x128_S128x128_1_0 :=
  (Cert.KernelIdeal.Host.V_w2 m c).trans
    ((truncf_id (ψ := .bf16) _ Cert.KernelIdeal.Facts₀.bitsLt_bf16_f32).trans (transpose_eq (F := Ideal) (m ((c : Thread Cert.KernelIdeal.nD Cert.KernelIdeal.τ).loc Cert.KernelIdeal.main_arg4))))

/-- What window 3 stages is the first bias as a row. -/
theorem b1_eq : (Cert.KernelIdeal.Gen.V m c Cert.KernelIdeal.main_v18 : SB.Idx → EReal)
    = Cert.ReferenceIdeal.RefValue.biasRow (F := Ideal) (m ((c : Thread Cert.KernelIdeal.nD Cert.KernelIdeal.τ).loc Cert.KernelIdeal.main_arg3)) :=
  (Cert.KernelIdeal.Host.V_b1 m c).trans (bias_row _)

/-- What window 5 stages is the second bias as a row. -/
theorem b2_eq : (Cert.KernelIdeal.Gen.V m c Cert.KernelIdeal.main_v19 : SB.Idx → EReal)
    = Cert.ReferenceIdeal.RefValue.biasRow (F := Ideal) (m ((c : Thread Cert.KernelIdeal.nD Cert.KernelIdeal.τ).loc Cert.KernelIdeal.main_arg5)) :=
  (Cert.KernelIdeal.Host.V_b2 m c).trans (bias_row _)

/-- The kernel's result array is the bi-interaction function of ego, the sparse product, the transposed weights
    and the biases as rows — the reference's own terms, at the kernel's arguments. -/
theorem kernel_result :
    Cert.KernelIdeal.Hand.result m c
      = bi (m ((c : Thread Cert.KernelIdeal.nD Cert.KernelIdeal.τ).loc Cert.KernelIdeal.main_arg0))
          (Cert.ReferenceIdeal.RefValue.spmm (F := Ideal) (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg6)) (m ((c : Thread Cert.KernelIdeal.nD Cert.KernelIdeal.τ).loc Cert.KernelIdeal.main_arg7)))
          (transpose Cert.ReferenceIdeal.S128x128 [1, 0] (m ((c : Thread Cert.KernelIdeal.nD Cert.KernelIdeal.τ).loc Cert.KernelIdeal.main_arg2)) Cert.ReferenceIdeal.Facts₀.transposes_S128x128_S128x128_1_0)
          (transpose Cert.ReferenceIdeal.S128x128 [1, 0] (m ((c : Thread Cert.KernelIdeal.nD Cert.KernelIdeal.τ).loc Cert.KernelIdeal.main_arg4)) Cert.ReferenceIdeal.Facts₀.transposes_S128x128_S128x128_1_0)
          (Cert.ReferenceIdeal.RefValue.biasRow (F := Ideal) (m ((c : Thread Cert.KernelIdeal.nD Cert.KernelIdeal.τ).loc Cert.KernelIdeal.main_arg3)))
          (Cert.ReferenceIdeal.RefValue.biasRow (F := Ideal) (m ((c : Thread Cert.KernelIdeal.nD Cert.KernelIdeal.τ).loc Cert.KernelIdeal.main_arg5))) :=
  bi_congr (Cert.KernelIdeal.Gen.V_main_arg0 m c) (side_eq m c) (w1_eq m c) (w2_eq m c) (b1_eq m c) (b2_eq m c)

end Cert.Bridge

end
-- ==== Proof.lean ====
/-
  A graph aggregator: the sparse adjacency product (gather the rows of the node embeddings named by cols, scale by
  vals, add into the rows named by rows) followed by a bi-interaction block,

    lrelu ((ego + side) · W1ᵀ + b1) + lrelu ((ego * side) · W2ᵀ + b2),

  side the sparse product rounded through the narrow float format. The kernel computes the sparse product with the
  same host operations as the reference and runs the dense block on the matrix unit, 2000 rows of nodes per grid
  point, against the reference's two whole matrix products.

  On the extended reals both results are ONE function of the arguments, entry by entry: a change of float format
  is the identity; a matrix-unit product onto a zero accumulator and the host's product are both the sum over the
  shared axis of the products; the weights are transposed by the same operation on both sides; a bias reshaped
  to a row and read down a block is the bias broadcast down the array; and the leaky ReLU is the same select of
  the same comparison and the same slope word. The 25 row blocks tile the 50000 rows, so the kernel's result array
  is that function everywhere. No law used needs a finite argument, so the precondition is never opened.

  The three frames: the two kernel programs' are the generated frame runs; the reference's is its run (the
  straight line of its forty-five host operations) with the result dropped. The idealization rewrote nothing.
-/
import proofs.«164715_j63015760167158_2_alg».proof.Defs
import proofs.«164715_j63015760167158_2_alg».proof.Proof.Gen.Kernel
import proofs.«164715_j63015760167158_2_alg».proof.Proof.Gen.Kernel.Skeleton
import proofs.«164715_j63015760167158_2_alg».proof.Proof.Gen.Kernel.Launch
import proofs.«164715_j63015760167158_2_alg».proof.Proof.Gen.Kernel.Points
import proofs.«164715_j63015760167158_2_alg».proof.Proof.Gen.Kernel.Frame
import proofs.«164715_j63015760167158_2_alg».proof.Proof.Gen.KernelIdeal
import proofs.«164715_j63015760167158_2_alg».proof.Proof.Gen.KernelIdeal.Skeleton
import proofs.«164715_j63015760167158_2_alg».proof.Proof.Gen.KernelIdeal.Launch
import proofs.«164715_j63015760167158_2_alg».proof.Proof.Gen.KernelIdeal.Points
import proofs.«164715_j63015760167158_2_alg».proof.Proof.Gen.KernelIdeal.Frame
import proofs.«164715_j63015760167158_2_alg».proof.Proof.Gen.KernelIdeal.Value
import proofs.«164715_j63015760167158_2_alg».proof.Proof.Gen.ReferenceIdeal
import proofs.«164715_j63015760167158_2_alg».proof.Proof.Gen.Pre_finite_inputs
import proofs.«164715_j63015760167158_2_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's run with the result dropped. -/
theorem frame_ri : Cert.frame_ReferenceIdeal := fun m ρ _ =>
  (θ_run Cert.ReferenceIdeal.defs _ _).mono (fun _ h c => (h c).2) (Cert.ReferenceIdeal.RefValue.run (F := Ideal) m ρ)

/-- The idealization is the program's own text read on the extended reals. -/
theorem preserves : Cert.preserves_Kernel_KernelIdeal := trivial

/-- Both programs end with the bi-interaction function of the arguments in their result arrays. -/
theorem algebraic : Cert.algebraic_KernelIdeal_ReferenceIdeal := by
  intro m ρ m' ρ' _ hagree
  refine ⟨fun c => Cert.KernelIdeal.Hand.result m c, ?_, ?_⟩
  · exact (θ_run Cert.KernelIdeal.defs _ _).mono
      (fun _ h c => ⟨(h c).1.trans (Cert.KernelIdeal.Hand.final m c), (h c).2⟩)
      (Cert.KernelIdeal.Value.run_blocks m ρ)
  · refine (θ_run Cert.ReferenceIdeal.defs _ _).mono (fun _ h c => ⟨(h c).1.trans ?_, (h c).2⟩)
      (Cert.ReferenceIdeal.RefValue.run (F := Ideal) m' ρ')
    obtain ⟨a0, a1, a2, a3, a4, a5, a6, a7⟩ := hagree c
    rw [a0, a1, a2, a3, a4, a5, a6, a7, Cert.ReferenceIdeal.RefValue.out_apply]
    exact (Cert.Bridge.kernel_result m c).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
